-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S5000000 : Shape := ⟨1, ![5000000]⟩
abbrev S500000 : Shape := ⟨1, ![500000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S5000000 : S_.BroadcastsInDim S5000000 (![] : Fin 0 → Fin S5000000.rank)
  reducesTo_S5000000_S_d0 : S5000000.ReducesTo [0] S_
  bcast_S_S500000 : S_.BroadcastsInDim S500000 (![] : Fin 0 → Fin S500000.rank)
  reducesTo_S500000_S_d0 : S500000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg8 : FVec F S16 .f32) (main_arg9 : FVec F S16x40 .f32) (main_arg10 : FVec F S40 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg8
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x40 .f32 := Host.absf main_arg9
  let main_cst_8 : FVec F S_ .f32 := constant S_ .f32 0x7F800000#32
  let main_v25 : FVec F S16x40 .f32 := broadcastInDim S16x40 ![] bcast_S_S16x40 main_cst_8
  let main_v26 : IVec S16x40 1 := cmpf .olt main_v24 main_v25
  let main_c_9 : IVec S_ 1 := constantI S_ 1 1#1
  let main_v27 : IVec S_ 1 := (fun x v => Host.reduce IntOp.andi x v reducesTo_S16x40_S_d0_1 h_S_) main_v26 main_c_9
  let main_v28 : IVec S_ 1 := andi main_v23 main_v27
  let main_v29 : FVec F S40 .f32 := Host.absf main_arg10
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S1000000x128 .f32) (main_arg1 : IVec S5000000 32) (main_arg2 : IVec S5000000 32) (main_arg3 : FVec F S5000000 .f32) (main_arg4 : IVec S500000 32) (main_arg5 : IVec S500000 32) (main_arg6 : FVec F S500000 .f32) (main_arg7 : FVec F S128x16 .f32) (main_arg8 : FVec F S16 .f32) (main_arg9 : FVec F S16x40 .f32) (main_arg10 : FVec F S40 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S5000000 .f32 := Host.absf main_arg3
  let main_cst_0 : FVec F S_ .f32 := constant S_ .f32 0x7F800000#32
  let main_v5 : FVec F S5000000 .f32 := broadcastInDim S5000000 ![] bcast_S_S5000000 main_cst_0
  let main_v6 : IVec S5000000 1 := cmpf .olt main_v4 main_v5
  let main_c_1 : IVec S_ 1 := constantI S_ 1 1#1
  let main_v7 : IVec S_ 1 := (fun x v => Host.reduce IntOp.andi x v reducesTo_S5000000_S_d0 h_S_) main_v6 main_c_1
  let main_v8 : IVec S_ 1 := andi main_v3 main_v7
  let main_v9 : FVec F S500000 .f32 := Host.absf main_arg6
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S128x16 .f32 := Host.absf main_arg7
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg8 main_arg9 main_arg10 main_v13 main_v16
-- ==== Kernel.lean ====
abbrev S1000000x128 : Shape := ⟨2, ![1000000, 128]⟩
abbrev S5000000 : Shape := ⟨1, ![5000000]⟩
abbrev S500000 : Shape := ⟨1, ![500000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1000000x16 : Shape := ⟨2, ![1000000, 16]⟩
abbrev S8000x128 : Shape := ⟨2, ![8000, 128]⟩
abbrev S8000x16 : Shape := ⟨2, ![8000, 16]⟩
abbrev S_ : Shape := ⟨0, ![]⟩
abbrev S5000000x1 : Shape := ⟨2, ![5000000, 1]⟩
abbrev S5000000x16 : Shape := ⟨2, ![5000000, 16]⟩
abbrev S500000x16 : Shape := ⟨2, ![500000, 16]⟩
abbrev S1x16 : Shape := ⟨2, ![1, 16]⟩
abbrev S500000x40 : Shape := ⟨2, ![500000, 40]⟩
abbrev S10000x16 : Shape := ⟨2, ![10000, 16]⟩
abbrev S10000x40 : Shape := ⟨2, ![10000, 40]⟩
abbrev S500000x1 : Shape := ⟨2, ![500000, 1]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 69
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S5000000, .i32⟩
  | .hbm, ⟨2, _⟩ => ⟨S5000000, .i32⟩
  | .hbm, ⟨3, _⟩ => ⟨S5000000, .f32⟩
  | .hbm, ⟨4, _⟩ => ⟨S500000, .i32⟩
  | .hbm, ⟨5, _⟩ => ⟨S500000, .i32⟩
  | .hbm, ⟨6, _⟩ => ⟨S500000, .f32⟩
  | .hbm, ⟨7, _⟩ => ⟨S128x16, .f32⟩
  | .hbm, ⟨8, _⟩ => ⟨S16, .f32⟩
  | .hbm, ⟨9, _⟩ => ⟨S16x40, .f32⟩
  | .hbm, ⟨10, _⟩ => ⟨S40, .f32⟩
  | .hbm, ⟨11, _⟩ => ⟨S1000000x16, .f32⟩
  | .hbm, ⟨12, _⟩ => ⟨S_, .i32⟩
  | .hbm, ⟨13, _⟩ => ⟨S5000000, .i32⟩
  | .hbm, ⟨14, _⟩ => ⟨S5000000, .i1⟩
  | .hbm, ⟨15, _⟩ => ⟨S_, .i32⟩
  | .hbm, ⟨16, _⟩ => ⟨S5000000, .i32⟩
  | .hbm, ⟨17, _⟩ => ⟨S5000000, .i32⟩
  | .hbm, ⟨18, _⟩ => ⟨S5000000, .i32⟩
  | .hbm, ⟨19, _⟩ => ⟨S5000000x1, .i32⟩
  | .hbm, ⟨20, _⟩ => ⟨S5000000x16, .f32⟩
  | .hbm, ⟨21, _⟩ => ⟨S5000000x1, .f32⟩
  | .hbm, ⟨22, _⟩ => ⟨S5000000x16, .f32⟩
  | .hbm, ⟨23, _⟩ => ⟨S5000000x16, .f32⟩
  | .hbm, ⟨24, _⟩ => ⟨S_, .f32⟩
  | .hbm, ⟨25, _⟩ => ⟨S500000x16, .f32⟩
  | .hbm, ⟨26, _⟩ => ⟨S5000000x1, .i32⟩
  | .hbm, ⟨27, _⟩ => ⟨S500000x16, .f32⟩
  | .hbm, ⟨28, _⟩ => ⟨S1x16, .f32⟩
  | .hbm, ⟨29, _⟩ => ⟨S500000x16, .f32⟩
  | .hbm, ⟨30, _⟩ => ⟨S500000x16, .f32⟩
  | .hbm, ⟨31, _⟩ => ⟨S_, .f32⟩
  | .hbm, ⟨32, _⟩ => ⟨S500000x16, .f32⟩
  | .hbm, ⟨33, _⟩ => ⟨S500000x16, .f32⟩
  | .hbm, ⟨34, _⟩ => ⟨S500000x40, .f32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x40, .f32⟩
  | .hbm, ⟨44, _⟩ => ⟨S500000x1, .f32⟩
  | .hbm, ⟨45, _⟩ => ⟨S500000x40, .f32⟩
  | .hbm, ⟨46, _⟩ => ⟨S500000x40, .f32⟩
  | .hbm, ⟨47, _⟩ => ⟨S_, .f32⟩
  | .hbm, ⟨48, _⟩ => ⟨S50000x40, .f32⟩
  | .hbm, ⟨49, _⟩ => ⟨S500000x1, .i32⟩
  | .hbm, ⟨50, _⟩ => ⟨S50000x40, .f32⟩
  | .hbm, ⟨51, _⟩ => ⟨S1x40, .f32⟩
  | .hbm, ⟨52, _⟩ => ⟨S50000x40, .f32⟩
  | .hbm, ⟨53, _⟩ => ⟨S50000x40, .f32⟩
  | .hbm, ⟨54, _⟩ => ⟨S_, .f32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x40, .f32⟩
  | .hbm, ⟨61, _⟩ => ⟨S50000x40, .f32⟩
  | .hbm, ⟨62, _⟩ => ⟨S50000x40, .f32⟩
  | .hbm, ⟨63, _⟩ => ⟨S_, .f32⟩
  | .hbm, ⟨64, _⟩ => ⟨S50000, .f32⟩
  | .hbm, ⟨65, _⟩ => ⟨S50000x1, .f32⟩
  | .hbm, ⟨66, _⟩ => ⟨S50000x1, .f32⟩
  | .hbm, ⟨67, _⟩ => ⟨S50000x40, .f32⟩
  | .hbm, ⟨68, _⟩ => ⟨S50000x40, .f32⟩
  | .local _ .vmem, ⟨0, _⟩ => ⟨S8000x128, .f32⟩
  | .local _ .vmem, ⟨1, _⟩ => ⟨S8000x128, .f32⟩
  | .local _ .vmem, ⟨2, _⟩ => ⟨S128x16, .f32⟩
  | .local _ .vmem, ⟨3, _⟩ => ⟨S8000x16, .f32⟩
  | .local _ .vmem, ⟨4, _⟩ => ⟨S8000x16, .f32⟩
  | .local _ .vmem, ⟨5, _⟩ => ⟨S10000x16, .f32⟩
  | .local _ .vmem, ⟨6, _⟩ => ⟨S10000x16, .f32⟩
  | .local _ .vmem, ⟨7, _⟩ => ⟨S16x40, .f32⟩
  | .local _ .vmem, ⟨8, _⟩ => ⟨S10000x40, .f32⟩
  | .local _ .vmem, ⟨9, _⟩ => ⟨S10000x40, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_call1_cst_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_1 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_v35 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S8000x16_S8000x16_0_0 : ∀ a, (![0, 0] : Fin 2 → Nat) a + S8000x16.size a ≤ S8000x16.size a
  h_S8000x16 : 0 < S8000x16.numel
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S5000000x1_S5000000x16_0_1 : S5000000x1.BroadcastsInDim S5000000x16 (![0, 1] : Fin 2 → Fin S5000000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x40_0_1 : S500000x1.BroadcastsInDim S500000x40 (![0, 1] : Fin 2 → Fin S500000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S8000x128_S128x16_S8000x16_1_0_0_1_n_n_wf : DotDims.WF S8000x128 S128x16 S8000x16 [1] [0] [0] [1] [] []
  gather_S1000000x16_S5000000x1_S5000000x16_1_0_n_n_0_1_116_wf : GatherDims.WF S1000000x16 S5000000x1 S5000000x16 [1] [0] [] [0] [] 1 ![1, 16]
  scatter_S500000x16_S5000000x1_S5000000x16_1_0_0_1_wf : ScatterDims.WF S500000x16 S5000000x1 S5000000x16 [1] [0] [0] 1
  dot_S10000x16_S16x40_S10000x40_1_0_0_1_n_n_wf : DotDims.WF S10000x16 S16x40 S10000x40 [1] [0] [0] [1] [] []
  gather_S500000x40_S500000x1_S500000x40_1_0_n_n_0_1_140_wf : GatherDims.WF S500000x40 S500000x1 S500000x40 [1] [0] [] [0] [] 1 ![1, 40]
  scatter_S50000x40_S500000x1_S500000x40_1_0_0_1_wf : ScatterDims.WF S50000x40 S500000x1 S500000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .f32 = 32 ∨ (Rect.block (s := S1000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S1000000x16.size a
  hwx0_2 : ∀ i : grid0.Coords, EltTy.bits .f32 = 32 ∨ (Rect.block (s := S1000000x16) S8000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S500000x40.size a
  hwx1_2 : ∀ i : grid1.Coords, EltTy.bits .f32 = 32 ∨ (Rect.block (s := S500000x40) S10000x40.size (cc1_transform_2 i) (hinb1_2 i)).WholeWords (EltTy.packing .f32)

variable [Facts₀]

def dot_S8000x128_S128x16_S8000x16_1_0_0_1_n_n : DotDims S8000x128 S128x16 S8000x16 where
  lhsContracting := [1]
  rhsContracting := [0]
  lhsNonContracting := [0]
  rhsNonContracting := [1]
  lhsBatch := []
  rhsBatch := []
  wf := dot_S8000x128_S128x16_S8000x16_1_0_0_1_n_n_wf
def gather_S1000000x16_S5000000x1_S5000000x16_1_0_n_n_0_1_116 : GatherDims S1000000x16 S5000000x1 S5000000x16 where
  offsetDims := [1]
  collapsedSliceDims := [0]
  operandBatchingDims := []
  startIndicesBatchingDims := []
  startIndexMap := [0]
  indexVectorDim := 1
  sliceSizes := ![1, 16]
  wf := gather_S1000000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S500000x40_S500000x1_S500000x40_1_0_n_n_0_1_140 : GatherDims S500000x40 S500000x1 S500000x40 where
  offsetDims := [1]
  collapsedSliceDims := [0]
  operandBatchingDims := []
  startIndicesBatchingDims := []
  startIndexMap := [0]
  indexVectorDim := 1
  sliceSizes := ![1, 40]
  wf := gather_S500000x40_S500000x1_S500000x40_1_0_n_n_0_1_140_wf
def scatter_S50000x40_S500000x1_S500000x40_1_0_0_1 : ScatterDims S50000x40 S500000x1 S500000x40 where
  updateWindowDims := [1]
  insertedWindowDims := [0]
  scatterDimsToOperandDims := [0]
  indexVectorDim := 1
  wf := scatter_S50000x40_S500000x1_S500000x40_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S5000000 : Shape := ⟨1, ![5000000]⟩
abbrev S500000 : Shape := ⟨1, ![500000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1000000x16 : Shape := ⟨2, ![1000000, 16]⟩
abbrev S_ : Shape := ⟨0, ![]⟩
abbrev S5000000x1 : Shape := ⟨2, ![5000000, 1]⟩
abbrev S5000000x16 : Shape := ⟨2, ![5000000, 16]⟩
abbrev S500000x16 : Shape := ⟨2, ![500000, 16]⟩
abbrev S1x16 : Shape := ⟨2, ![1, 16]⟩
abbrev S500000x40 : Shape := ⟨2, ![500000, 40]⟩
abbrev S500000x1 : Shape := ⟨2, ![500000, 1]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 69
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S5000000, .i32⟩
  | .hbm, ⟨2, _⟩ => ⟨S5000000, .i32⟩
  | .hbm, ⟨3, _⟩ => ⟨S5000000, .f32⟩
  | .hbm, ⟨4, _⟩ => ⟨S500000, .i32⟩
  | .hbm, ⟨5, _⟩ => ⟨S500000, .i32⟩
  | .hbm, ⟨6, _⟩ => ⟨S500000, .f32⟩
  | .hbm, ⟨7, _⟩ => ⟨S128x16, .f32⟩
  | .hbm, ⟨8, _⟩ => ⟨S16, .f32⟩
  | .hbm, ⟨9, _⟩ => ⟨S16x40, .f32⟩
  | .hbm, ⟨10, _⟩ => ⟨S40, .f32⟩
  | .hbm, ⟨11, _⟩ => ⟨S1000000x16, .f32⟩
  | .hbm, ⟨12, _⟩ => ⟨S_, .i32⟩
  | .hbm, ⟨13, _⟩ => ⟨S5000000, .i32⟩
  | .hbm, ⟨14, _⟩ => ⟨S5000000, .i1⟩
  | .hbm, ⟨15, _⟩ => ⟨S_, .i32⟩
  | .hbm, ⟨16, _⟩ => ⟨S5000000, .i32⟩
  | .hbm, ⟨17, _⟩ => ⟨S5000000, .i32⟩
  | .hbm, ⟨18, _⟩ => ⟨S5000000, .i32⟩
  | .hbm, ⟨19, _⟩ => ⟨S5000000x1, .i32⟩
  | .hbm, ⟨20, _⟩ => ⟨S5000000x16, .f32⟩
  | .hbm, ⟨21, _⟩ => ⟨S5000000x1, .f32⟩
  | .hbm, ⟨22, _⟩ => ⟨S5000000x16, .f32⟩
  | .hbm, ⟨23, _⟩ => ⟨S5000000x16, .f32⟩
  | .hbm, ⟨24, _⟩ => ⟨S_, .f32⟩
  | .hbm, ⟨25, _⟩ => ⟨S500000x16, .f32⟩
  | .hbm, ⟨26, _⟩ => ⟨S5000000x1, .i32⟩
  | .hbm, ⟨27, _⟩ => ⟨S500000x16, .f32⟩
  | .hbm, ⟨28, _⟩ => ⟨S1x16, .f32⟩
  | .hbm, ⟨29, _⟩ => ⟨S500000x16, .f32⟩
  | .hbm, ⟨30, _⟩ => ⟨S500000x16, .f32⟩
  | .hbm, ⟨31, _⟩ => ⟨S_, .f32⟩
  | .hbm, ⟨32, _⟩ => ⟨S500000x16, .f32⟩
  | .hbm, ⟨33, _⟩ => ⟨S500000x16, .f32⟩
  | .hbm, ⟨34, _⟩ => ⟨S500000x40, .f32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x40, .f32⟩
  | .hbm, ⟨44, _⟩ => ⟨S500000x1, .f32⟩
  | .hbm, ⟨45, _⟩ => ⟨S500000x40, .f32⟩
  | .hbm, ⟨46, _⟩ => ⟨S500000x40, .f32⟩
  | .hbm, ⟨47, _⟩ => ⟨S_, .f32⟩
  | .hbm, ⟨48, _⟩ => ⟨S50000x40, .f32⟩
  | .hbm, ⟨49, _⟩ => ⟨S500000x1, .i32⟩
  | .hbm, ⟨50, _⟩ => ⟨S50000x40, .f32⟩
  | .hbm, ⟨51, _⟩ => ⟨S1x40, .f32⟩
  | .hbm, ⟨52, _⟩ => ⟨S50000x40, .f32⟩
  | .hbm, ⟨53, _⟩ => ⟨S50000x40, .f32⟩
  | .hbm, ⟨54, _⟩ => ⟨S_, .f32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x40, .f32⟩
  | .hbm, ⟨61, _⟩ => ⟨S50000x40, .f32⟩
  | .hbm, ⟨62, _⟩ => ⟨S50000x40, .f32⟩
  | .hbm, ⟨63, _⟩ => ⟨S_, .f32⟩
  | .hbm, ⟨64, _⟩ => ⟨S50000, .f32⟩
  | .hbm, ⟨65, _⟩ => ⟨S50000x1, .f32⟩
  | .hbm, ⟨66, _⟩ => ⟨S50000x1, .f32⟩
  | .hbm, ⟨67, _⟩ => ⟨S50000x40, .f32⟩
  | .hbm, ⟨68, _⟩ => ⟨S50000x40, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_call1_cst_0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_cst_1 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_v35 : Ref sig .tc := ⟨.hbm, 68, rfl⟩

abbrev nD : Nat := 1
abbrev τ : Topo := Topo.v7x

variable {F : FTy → Type} [FloatOps F]

class Facts₀ : Prop where
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S5000000x1_S5000000x16_0_1 : S5000000x1.BroadcastsInDim S5000000x16 (![0, 1] : Fin 2 → Fin S5000000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x40_0_1 : S500000x1.BroadcastsInDim S500000x40 (![0, 1] : Fin 2 → Fin S500000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S1000000x128_S128x16_S1000000x16_1_0_0_1_n_n_wf : DotDims.WF S1000000x128 S128x16 S1000000x16 [1] [0] [0] [1] [] []
  gather_S1000000x16_S5000000x1_S5000000x16_1_0_n_n_0_1_116_wf : GatherDims.WF S1000000x16 S5000000x1 S5000000x16 [1] [0] [] [0] [] 1 ![1, 16]
  scatter_S500000x16_S5000000x1_S5000000x16_1_0_0_1_wf : ScatterDims.WF S500000x16 S5000000x1 S5000000x16 [1] [0] [0] 1
  dot_S500000x16_S16x40_S500000x40_1_0_0_1_n_n_wf : DotDims.WF S500000x16 S16x40 S500000x40 [1] [0] [0] [1] [] []
  gather_S500000x40_S500000x1_S500000x40_1_0_n_n_0_1_140_wf : GatherDims.WF S500000x40 S500000x1 S500000x40 [1] [0] [] [0] [] 1 ![1, 40]
  scatter_S50000x40_S500000x1_S500000x40_1_0_0_1_wf : ScatterDims.WF S50000x40 S500000x1 S500000x40 [1] [0] [0] 1

variable [Facts₀]

def dot_S1000000x128_S128x16_S1000000x16_1_0_0_1_n_n : DotDims S1000000x128 S128x16 S1000000x16 where
  lhsContracting := [1]
  rhsContracting := [0]
  lhsNonContracting := [0]
  rhsNonContracting := [1]
  lhsBatch := []
  rhsBatch := []
  wf := dot_S1000000x128_S128x16_S1000000x16_1_0_0_1_n_n_wf
def gather_S1000000x16_S5000000x1_S5000000x16_1_0_n_n_0_1_116 : GatherDims S1000000x16 S5000000x1 S5000000x16 where
  offsetDims := [1]
  collapsedSliceDims := [0]
  operandBatchingDims := []
  startIndicesBatchingDims := []
  startIndexMap := [0]
  indexVectorDim := 1
  sliceSizes := ![1, 16]
  wf := gather_S1000000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S500000x16_S16x40_S500000x40_1_0_0_1_n_n : DotDims S500000x16 S16x40 S500000x40 where
  lhsContracting := [1]
  rhsContracting := [0]
  lhsNonContracting := [0]
  rhsNonContracting := [1]
  lhsBatch := []
  rhsBatch := []
  wf := dot_S500000x16_S16x40_S500000x40_1_0_0_1_n_n_wf
def gather_S500000x40_S500000x1_S500000x40_1_0_n_n_0_1_140 : GatherDims S500000x40 S500000x1 S500000x40 where
  offsetDims := [1]
  collapsedSliceDims := [0]
  operandBatchingDims := []
  startIndicesBatchingDims := []
  startIndexMap := [0]
  indexVectorDim := 1
  sliceSizes := ![1, 40]
  wf := gather_S500000x40_S500000x1_S500000x40_1_0_n_n_0_1_140_wf
def scatter_S50000x40_S500000x1_S500000x40_1_0_0_1 : ScatterDims S50000x40 S500000x1 S500000x40 where
  updateWindowDims := [1]
  insertedWindowDims := [0]
  scatterDimsToOperandDims := [0]
  indexVectorDim := 1
  wf := scatter_S50000x40_S500000x1_S500000x40_1_0_0_1_wf

class Facts : Prop extends Facts₀ where

variable [Facts]
-- ==== Proof.KRun.lean ====
/-
  The idealized kernel's run with its result buffer named.

  The program is two kernel regions among four stretches of host operations. Its run is the chain of those six segments
  from the launch memory; the buffer contents at each boundary are a fold through the segments — a host stretch applies
  its operations to the contents before it, a region leaves its arrays at what its write-backs leave and every other
  buffer as it was. The last boundary's contents `W6` are what every unscoped buffer holds in the final state; read at
  the result buffer they give the result, read at an argument they give that argument's launch contents.
-/
import proofs.«151182_j61950608278028_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched: the launch over the six segments, the last thread state read
    against the final state buffer by buffer. -/
theorem run : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.ValueRun

end
-- ==== Proof.GcnLayers.lean ====
/-
  The host side of a two-layer graph convolution, as three functions of arrays.

  `layer1 lin src dst ew b` is the first layer after its dense product `lin`: row `src e` of `lin` (a negative index
  wrapped once around the node count) is gathered for every edge `e`, scaled by the edge weight `ew e`, the scaled rows are
  summed into row `dst e` of a zero array, the bias row `b` is added to every row, and the result is rectified.
  `conv2` is the same gather, scaling, scattered sum and bias of the second layer, without the rectification, and
  `logSoftmax z` is the row-wise logarithm of the softmax: `z - max_row z - log (Σ_row exp (z - max_row z))`.
  The operations are the host's own, applied in the order both programs apply them.
-/
import proofs.«151182_j61950608278028_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- Float and integer arrays of a shape. -/
abbrev FV (F : FTy → Type) (S : Shape) : Type := (⟨S, .f32⟩ : BufTy).Contents (Elt F)
abbrev IV (F : FTy → Type) (S : Shape) : Type := (⟨S, .i32⟩ : BufTy).Contents (Elt F)

/-- The first layer after its dense product: gather by source, scale by edge weight, sum into targets, add the bias,
    rectify. -/
def layer1 (lin : FV F S1000000x16) (src dst : IV F S5000000) (ew : FV F S5000000) (b : FV F S16) : FV F S500000x16 :=
  maximumf (addf (Host.scatterAdd scatter_S500000x16_S5000000x1_S5000000x16_1_0_0_1 (broadcastInDim S500000x16 ![] bcast_S_S500000x16 (constant S_ .f32 0x00000000#32)) (broadcastInDim S5000000x1 ![0] bcast_S5000000_S5000000x1_0 dst) (mulf (Host.gather gather_S1000000x16_S5000000x1_S5000000x16_1_0_n_n_0_1_116 lin (broadcastInDim S5000000x1 ![0] bcast_S5000000_S5000000x1_0 (select (cmpi .slt src (broadcastInDim S5000000 ![] bcast_S_S5000000 (constantI S_ 32 0#32))) (addi src (broadcastInDim S5000000 ![] bcast_S_S5000000 (constantI S_ 32 1000000#32))) src))) (broadcastInDim S5000000x16 ![0, 1] bcast_S5000000x1_S5000000x16_0_1 (broadcastInDim S5000000x1 ![0] bcast_S5000000_S5000000x1_0 ew)))) (broadcastInDim S500000x16 ![0, 1] bcast_S1x16_S500000x16_0_1 (broadcastInDim S1x16 ![1] bcast_S16_S1x16_1 b))) (broadcastInDim S500000x16 ![] bcast_S_S500000x16 (constant S_ .f32 0x00000000#32))

/-- The second layer after its dense product: gather by source, scale by edge weight, sum into targets, add the bias. -/
def conv2 (lin : FV F S500000x40) (src dst : IV F S500000) (ew : FV F S500000) (b : FV F S40) : FV F S50000x40 :=
  addf (Host.scatterAdd scatter_S50000x40_S500000x1_S500000x40_1_0_0_1 (broadcastInDim S50000x40 ![] bcast_S_S50000x40 (constant S_ .f32 0x00000000#32)) (broadcastInDim S500000x1 ![0] bcast_S500000_S500000x1_0 dst) (mulf (Host.gather gather_S500000x40_S500000x1_S500000x40_1_0_n_n_0_1_140 lin (broadcastInDim S500000x1 ![0] bcast_S500000_S500000x1_0 (select (cmpi .slt src (broadcastInDim S500000 ![] bcast_S_S500000 (constantI S_ 32 0#32))) (addi src (broadcastInDim S500000 ![] bcast_S_S500000 (constantI S_ 32 500000#32))) src))) (broadcastInDim S500000x40 ![0, 1] bcast_S500000x1_S500000x40_0_1 (broadcastInDim S500000x1 ![0] bcast_S500000_S500000x1_0 ew)))) (broadcastInDim S50000x40 ![0, 1] bcast_S1x40_S50000x40_0_1 (broadcastInDim S1x40 ![1] bcast_S40_S1x40_1 b))

/-- The row-wise logarithm of the softmax. -/
def logSoftmax (z : FV F S50000x40) : FV F S50000x40 :=
  subf (subf z (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x40_S50000_d1 h_S_))))) (broadcastInDim S50000x40 ![0, 1] bcast_S50000x1_S50000x40_0_1 (Host.log (broadcastInDim S50000x1 ![0] bcast_S50000_S50000x1_0 (Host.reduceAdd (Host.exp (subf z (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x40_S50000_d1 h_S_)))))) (constant S_ .f32 0x00000000#32) reducesTo_S50000x40_S50000_d1 h_S_))))

end Cert.Gcn

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.KHost.lean ====
/-
  The host stretches of the idealized kernel, read back.

  Between the first region's exit and the second region's entry the program applies the first layer's host operations to
  the first region's result array and four arguments; after the second region's exit it applies the second layer's host
  operations and the logarithm of the softmax to the second region's result array and four arguments. Each stretch is a
  fold of its operations over the buffer contents before it, so the buffer a stretch's last operation writes holds the
  composition of the operations' functions — the layer functions of the specification — and a buffer no operation of
  the stretch writes holds what it held before.
-/
import proofs.«151182_j61950608278028_1_alg».proof.Proof.Gen.KernelIdeal.Frame
import proofs.«151182_j61950608278028_1_alg».proof.Proof.GcnLayers
import proofs.«151182_j61950608278028_1_alg».proof.Proof.LibTypedRef
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.TypedRef

variable {F : FTy → Type} [FloatOps F]
variable (m : (ℓ : Loc nD τ sig) → Buf (Elt F) ℓ) (ρ : Dev nD → PrngReg)

/-- Argument 4 is written by no operation before the second region and is no array of the first. -/
theorem W3_arg4 (c : Dev nD) : W3 m ρ c (Proc.devRef .tc main_arg4) = m ((c : Thread nD τ).loc main_arg4) := by
  show StableHlo.after hostOps1_1 (StableHlo.after hostOps1 (W1 m ρ c)) (Proc.devRef .tc main_arg4) = _
  dsimp only [hostOps1_1, hostOps1]
  after_results_simp
  exact W1_of_ne m ρ c main_arg4 (by decide)

/-- Argument 5 is written by no operation before the second region and is no array of the first. -/
theorem W3_arg5 (c : Dev nD) : W3 m ρ c (Proc.devRef .tc main_arg5) = m ((c : Thread nD τ).loc main_arg5) := by
  show StableHlo.after hostOps1_1 (StableHlo.after hostOps1 (W1 m ρ c)) (Proc.devRef .tc main_arg5) = _
  dsimp only [hostOps1_1, hostOps1]
  after_results_simp
  exact W1_of_ne m ρ c main_arg5 (by decide)

/-- Argument 6 is written by no operation before the second region and is no array of the first. -/
theorem W3_arg6 (c : Dev nD) : W3 m ρ c (Proc.devRef .tc main_arg6) = m ((c : Thread nD τ).loc main_arg6) := by
  show StableHlo.after hostOps1_1 (StableHlo.after hostOps1 (W1 m ρ c)) (Proc.devRef .tc main_arg6) = _
  dsimp only [hostOps1_1, hostOps1]
  after_results_simp
  exact W1_of_ne m ρ c main_arg6 (by decide)

/-- Argument 9 is written by no operation before the second region and is no array of the first. -/
theorem W3_arg9 (c : Dev nD) : W3 m ρ c (Proc.devRef .tc main_arg9) = m ((c : Thread nD τ).loc main_arg9) := by
  show StableHlo.after hostOps1_1 (StableHlo.after hostOps1 (W1 m ρ c)) (Proc.devRef .tc main_arg9) = _
  dsimp only [hostOps1_1, hostOps1]
  after_results_simp
  exact W1_of_ne m ρ c main_arg9 (by decide)

/-- Argument 10 is written by no operation before the second region and is no array of the first. -/
theorem W3_arg10 (c : Dev nD) : W3 m ρ c (Proc.devRef .tc main_arg10) = m ((c : Thread nD τ).loc main_arg10) := by
  show StableHlo.after hostOps1_1 (StableHlo.after hostOps1 (W1 m ρ c)) (Proc.devRef .tc main_arg10) = _
  dsimp only [hostOps1_1, hostOps1]
  after_results_simp
  exact W1_of_ne m ρ c main_arg10 (by decide)

set_option maxHeartbeats 2000000 in
/-- At the second region's entry its left operand holds the first layer of the first region's result array. -/
theorem W3_v17 (c : Dev nD) : W3 m ρ c (Proc.devRef .tc main_v17)
    = Cert.Gcn.layer1 (W1 m ρ c (Proc.devRef .tc main_v0)) (m ((c : Thread nD τ).loc main_arg1)) (m ((c : Thread nD τ).loc main_arg2)) (m ((c : Thread nD τ).loc main_arg3)) (m ((c : Thread nD τ).loc main_arg8)) := by
  show StableHlo.after hostOps1_1 (StableHlo.after hostOps1 (W1 m ρ c)) (Proc.devRef .tc main_v17) = _
  dsimp only [hostOps1_1, hostOps1]
  after_results_simp
  rw [W1_of_ne m ρ c main_arg1 (by decide), W1_of_ne m ρ c main_arg2 (by decide), W1_of_ne m ρ c main_arg3 (by decide),
    W1_of_ne m ρ c main_arg8 (by decide)]
  simp only [ofBuf_toBuf]
  rfl

set_option maxHeartbeats 2000000 in
/-- At the return the result buffer holds the logarithm of the softmax of the second layer of the second region's result
    array. -/
theorem W6_v35 (c : Dev nD) : W6 m ρ c (Proc.devRef .tc main_v35)
    = Cert.Gcn.logSoftmax (Cert.Gcn.conv2 (W4 m ρ c (Proc.devRef .tc main_v18)) (m ((c : Thread nD τ).loc main_arg4)) (m ((c : Thread nD τ).loc main_arg5)) (m ((c : Thread nD τ).loc main_arg6)) (m ((c : Thread nD τ).loc main_arg10))) := by
  show StableHlo.after hostOps2_1 (StableHlo.after hostOps2 (W4 m ρ c)) (Proc.devRef .tc main_v35) = _
  dsimp only [hostOps2_1, hostOps2]
  after_results_simp
  rw [W4_of_ne m ρ c main_arg4 (by decide), W4_of_ne m ρ c main_arg5 (by decide), W4_of_ne m ρ c main_arg6 (by decide),
    W4_of_ne m ρ c main_arg10 (by decide), W3_arg4, W3_arg5, W3_arg6, W3_arg10]
  simp only [ofBuf_toBuf]
  rfl

end Cert.KernelIdeal.HostValue

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.RegionMm.lean ====
/-
  The two kernel regions as whole-array functions, on the extended reals.

  Each region is a matrix product tiled over the rows of its left operand: grid point `t` loads row block `t` of the left
  array and the whole right array, multiplies them on the matrix unit into a zero accumulator (the operands first rounded
  to a narrower float format, which is the identity at the exact instance), and writes the product back as row block `t`
  of the result. Row `r` of a matrix product depends on row `r` of the left operand only, so the block written at
  point `t` is block `t` of the one whole product `mm A B`; the row blocks tile the result array, hence after the region
  the result array IS `mm A B` of the two arrays as the region finds them.
-/
import proofs.«151182_j61950608278028_1_alg».proof.Proof.Gen.KernelIdeal.Frame
import proofs.«151182_j61950608278028_1_alg».proof.Proof.LibDense
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.Dense

variable (V : (c : Dev nD) → (b : Ref sig .tc) → Buf (Elt Ideal) ((c : Thread nD τ).loc b))

theorem hz : (![0, 0] : Fin 2 → Nat) = fun _ => 0 := funext fun a => by fin_cases a <;> rfl

/-! ## Region 0: a row-blocked matrix product, 125 blocks of 8000 rows -/

section Region0

/-- The body's stored value is the matrix product of its two loaded blocks: at the exact instance a change of float
    format is the identity, and the matrix unit's product into a zero accumulator is the plain sum of products. -/
theorem pay0_eq (x0 : Vec Ideal S8000x128 .f32) (x1 : Vec Ideal S128x16 .f32) : k0_pay1 x0 x1 = mm x0 x1 := by
  unfold k0_pay1
  exact matmul_zero_eq_mm dot_S8000x128_S128x16_S8000x16_1_0_0_1_n_n rfl rfl rfl rfl rfl rfl none _ _

/-- The printed index maps over the grid: at point `t` the left operand's and the result's blocks are row block `t`,
    and the right operand's block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the region finds them: row
    `8000·t + p` of the product depends on row `8000·t + p` of the left array only, which is row `p` of its block. -/
theorem flushed0_eq (c : Dev nD) (t : Fin cfg0.N) :
    (dat0 V c).flushed 2 t = ((cfg0.win 2).blk t).view.read (Elt Ideal) (mm (V c main_arg0) (V c main_arg7)) := by
  show (cfg0.win 2).cut (grid0.coords t) ((dat0 V c).after 2 t) = _
  rw [after0_2]
  unfold out0_2
  rw [View.canon_unit_zero hz]
  simp only [View.ld_unit_zero (S := S8000x128) hz, View.ld_unit_zero (S := S128x16) hz]
  rw [pay0_eq]
  have ht : t.val < 125 := t.isLt
  obtain ⟨e0, e1, e2, e3, e4, e5⟩ := idx0 t
  funext j
  obtain ⟨p, q, rfl⟩ : ∃ (p : Fin 8000) (q : Fin 16), j = ix2 p q := ⟨j 0, j 1, eq_ix2 j⟩
  have hp : p.val < 8000 := p.isLt
  show mm (iblk0 V c 0 t) (iblk0 V c 1 t) (ix2 p q) = mm (V c main_arg0) (V c main_arg7) (((cfg0.win 2).blk t).view.emb (ix2 p q))
  have hemb : ((cfg0.win 2).blk t).view.emb (ix2 p q) = ix2 (⟨t.val * 8000 + p.val, by omega⟩ : Fin 1000000) q := by
    funext a; apply Fin.ext
    match a with
    | ⟨0, _⟩ => show win0_2.index t (0 : Fin 2) * 8000 + 1 * p.val = t.val * 8000 + p.val; omega
    | ⟨1, _⟩ => show win0_2.index t (1 : Fin 2) * 16 + 1 * q.val = q.val; omega
  rw [hemb, mm_apply, mm_apply]
  refine Finset.sum_congr rfl fun k _ => ?_
  have hl : iblk0 V c 0 t (ix2 p k) = V c main_arg0 (ix2 (⟨t.val * 8000 + p.val, by omega⟩ : Fin 1000000) k) := by
    show V c main_arg0 (((cfg0.win 0).blk t).view.emb (ix2 p k)) = _
    refine congrArg _ (funext fun a => Fin.ext ?_)
    match a with
    | ⟨0, _⟩ => show win0_0.index t (0 : Fin 2) * 8000 + 1 * p.val = t.val * 8000 + p.val; omega
    | ⟨1, _⟩ => show win0_0.index t (1 : Fin 2) * 128 + 1 * k.val = k.val; omega
  have hr : iblk0 V c 1 t (ix2 k q) = V c main_arg7 (ix2 k q) := by
    show V c main_arg7 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega
  rw [hl, hr]

/-- An index of the result array is in point `t`'s block iff each coordinate is in the block's range on its axis. -/
theorem mem_blk0 (t : Fin cfg0.N) (i : S1000000x16.Idx) :
    i ∈ ((cfg0.win 2).blk t).view.set ↔ ∀ a : Fin 2, win0_2.index t a * S8000x16.size a ≤ (i a).val ∧ (i a).val < win0_2.index t a * S8000x16.size a + S8000x16.size a := by
  show i ∈ ((View.whole main_v0).slice (win0_2.rect t)).set ↔ _
  rw [View.set_slice_whole, Rect.mem_set_unit]
  exact Iff.rfl

/-- The row blocks tile the result array: row `r` lies in block `r / 8000`. -/
theorem cover0 (i : S1000000x16.Idx) :
    ∃ t : Fin cfg0.N, (cfg0.win 2).flush t = true ∧ i ∈ ((cfg0.win 2).blk t).view.set := by
  have hi0 : (i 0).val < 1000000 := (i 0).isLt
  have hi1 : (i 1).val < 16 := (i 1).isLt
  have hlt : (i 0).val / 8000 < 125 := by omega
  obtain ⟨e0, e1, e2, e3, e4, e5⟩ := idx0 ⟨(i 0).val / 8000, hlt⟩
  refine ⟨⟨(i 0).val / 8000, hlt⟩, flush0_2 _, ?_⟩
  rw [mem_blk0]
  intro a
  match a with
  | ⟨0, _⟩ =>
    show win0_2.index ⟨(i 0).val / 8000, hlt⟩ (0 : Fin 2) * 8000 ≤ (i 0).val ∧ (i 0).val < win0_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win0_2.index ⟨(i 0).val / 8000, hlt⟩ (1 : Fin 2) * 16 ≤ (i 1).val ∧ (i 1).val < win0_2.index ⟨(i 0).val / 8000, hlt⟩ (1 : Fin 2) * 16 + 16
    rw [e5]; omega

/-- The result array after the region is the whole matrix product of the two arrays as the region finds them. -/
theorem final0 (c : Dev nD) : (dat0 V c).arrAt 2 cfg0.N = mm (V c main_arg0) (V c main_arg7) :=
  (dat0 V c).arrAt_eq_of_cover 2 _ (fun t _ => flushed0_eq V c t) cover0

end Region0

/-! ## Region 1: a row-blocked matrix product, 50 blocks of 10000 rows -/

section Region1

/-- The body's stored value is the matrix product of its two loaded blocks: at the exact instance a change of float
    format is the identity, and the matrix unit's product into a zero accumulator is the plain sum of products. -/
theorem pay1_eq (x0 : Vec Ideal S10000x16 .f32) (x1 : Vec Ideal S16x40 .f32) : k1_pay1 x0 x1 = mm x0 x1 := by
  unfold k1_pay1
  rw [shapeCast_self]
  exact matmul_zero_eq_mm dot_S10000x16_S16x40_S10000x40_1_0_0_1_n_n rfl rfl rfl rfl rfl rfl none _ _

/-- The printed index maps over the grid: at point `t` the left operand's and the result's blocks are row block `t`,
    and the right operand's block is the whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the two arrays as the region finds them: row
    `10000·t + p` of the product depends on row `10000·t + p` of the left array only, which is row `p` of its block. -/
theorem flushed1_eq (c : Dev nD) (t : Fin cfg1.N) :
    (dat1 V c).flushed 2 t = ((cfg1.win 2).blk t).view.read (Elt Ideal) (mm (V c main_v17) (V c main_arg9)) := by
  show (cfg1.win 2).cut (grid1.coords t) ((dat1 V c).after 2 t) = _
  rw [after1_2]
  unfold out1_2
  rw [View.canon_unit_zero hz]
  simp only [View.ld_unit_zero (S := S10000x16) hz, View.ld_unit_zero (S := S16x40) hz]
  rw [pay1_eq]
  have ht : t.val < 50 := t.isLt
  obtain ⟨e0, e1, e2, e3, e4, e5⟩ := idx1 t
  funext j
  obtain ⟨p, q, rfl⟩ : ∃ (p : Fin 10000) (q : Fin 40), j = ix2 p q := ⟨j 0, j 1, eq_ix2 j⟩
  have hp : p.val < 10000 := p.isLt
  show mm (iblk1 V c 0 t) (iblk1 V c 1 t) (ix2 p q) = mm (V c main_v17) (V c main_arg9) (((cfg1.win 2).blk t).view.emb (ix2 p q))
  have hemb : ((cfg1.win 2).blk t).view.emb (ix2 p q) = ix2 (⟨t.val * 10000 + p.val, by omega⟩ : Fin 500000) q := by
    funext a; apply Fin.ext
    match a with
    | ⟨0, _⟩ => show win1_2.index t (0 : Fin 2) * 10000 + 1 * p.val = t.val * 10000 + p.val; omega
    | ⟨1, _⟩ => show win1_2.index t (1 : Fin 2) * 40 + 1 * q.val = q.val; omega
  rw [hemb, mm_apply, mm_apply]
  refine Finset.sum_congr rfl fun k _ => ?_
  have hl : iblk1 V c 0 t (ix2 p k) = V c main_v17 (ix2 (⟨t.val * 10000 + p.val, by omega⟩ : Fin 500000) k) := by
    show V c main_v17 (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 16 + 1 * k.val = k.val; omega
  have hr : iblk1 V c 1 t (ix2 k q) = V c main_arg9 (ix2 k q) := by
    show V c main_arg9 (((cfg1.win 1).blk t).view.emb (ix2 k q)) = _
    refine congrArg _ (funext fun a => Fin.ext ?_)
    match a with
    | ⟨0, _⟩ => show win1_1.index t (0 : Fin 2) * 16 + 1 * k.val = k.val; omega
    | ⟨1, _⟩ => show win1_1.index t (1 : Fin 2) * 40 + 1 * q.val = q.val; omega
  rw [hl, hr]

/-- An index of the result array is in point `t`'s block iff each coordinate is in the block's range on its axis. -/
theorem mem_blk1 (t : Fin cfg1.N) (i : S500000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v18).slice (win1_2.rect t)).set ↔ _
  rw [View.set_slice_whole, Rect.mem_set_unit]
  exact Iff.rfl

/-- The row blocks tile the result array: row `r` lies in block `r / 10000`. -/
theorem cover1 (i : S500000x40.Idx) :
    ∃ t : Fin cfg1.N, (cfg1.win 2).flush t = true ∧ i ∈ ((cfg1.win 2).blk t).view.set := by
  have hi0 : (i 0).val < 500000 := (i 0).isLt
  have hi1 : (i 1).val < 40 := (i 1).isLt
  have hlt : (i 0).val / 10000 < 50 := by omega
  obtain ⟨e0, e1, e2, e3, e4, e5⟩ := idx1 ⟨(i 0).val / 10000, hlt⟩
  refine ⟨⟨(i 0).val / 10000, hlt⟩, flush1_2 _, ?_⟩
  rw [mem_blk1]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 40 ≤ (i 1).val ∧ (i 1).val < win1_2.index ⟨(i 0).val / 10000, hlt⟩ (1 : Fin 2) * 40 + 40
    rw [e5]; omega

/-- The result array after the region is the whole matrix product of the two arrays as the region finds them. -/
theorem final1 (c : Dev nD) : (dat1 V c).arrAt 2 cfg1.N = mm (V c main_v17) (V c main_arg9) :=
  (dat1 V c).arrAt_eq_of_cover 2 _ (fun t _ => flushed1_eq V c t) cover1

end Region1

end Cert.KernelIdeal.RegionValue

end
-- ==== Proof.Bridge.lean ====
/-
  The two programs compute one function.

  The specification `gcn`: with `mm` the matrix product on the extended reals,
      gcn = logSoftmax (conv2 (mm (layer1 (mm x W1) src1 dst1 ew1 b1) W2) src2 dst2 ew2 b2).
  The idealized kernel computes the two products in its two regions (row block by row block) and everything else by the
  host operations between and after them; the reference computes the two products by the host's dot product, which is
  the same sum of products over the contracted axis, and everything else by the same host operations. No law of
  arithmetic beyond the reading of both products as `mm` is used, so nothing is asked of the inputs.
-/
import proofs.«151182_j61950608278028_1_alg».proof.Proof.KRun
import proofs.«151182_j61950608278028_1_alg».proof.Proof.KHost
import proofs.«151182_j61950608278028_1_alg».proof.Proof.RegionMm
import proofs.«151182_j61950608278028_1_alg».proof.Proof.RefRunPatched
import proofs.«151182_j61950608278028_1_alg».proof.Proof.GcnLayers
import proofs.«151182_j61950608278028_1_alg».proof.Proof.LibDense

set_option maxRecDepth 16384

noncomputable section

/-! ## The specification -/

namespace Cert.Gcn

open Cert.ReferenceIdeal Cert.ReferenceIdeal.Gen Idealize.ShloMosaic Cert.Dense

/-- The two-layer graph convolution with both dense products as matrix products on the extended reals. -/
def gcn (x : FV Ideal S1000000x128) (src1 dst1 : IV Ideal S5000000) (ew1 : FV Ideal S5000000)
    (src2 dst2 : IV Ideal S500000) (ew2 : FV Ideal S500000) (w1 : FV Ideal S128x16) (b1 : FV Ideal S16)
    (w2 : FV Ideal S16x40) (b2 : FV Ideal S40) : FV Ideal S50000x40 :=
  logSoftmax (conv2 (mm (layer1 (mm x w1) src1 dst1 ew1 b1) w2) src2 dst2 ew2 b2)

/-- The same with the host's dot products: each is the matrix product. -/
theorem gcn_hostDot (x : FV Ideal S1000000x128) (src1 dst1 : IV Ideal S5000000) (ew1 : FV Ideal S5000000)
    (src2 dst2 : IV Ideal S500000) (ew2 : FV Ideal S500000) (w1 : FV Ideal S128x16) (b1 : FV Ideal S16)
    (w2 : FV Ideal S16x40) (b2 : FV Ideal S40) :
    logSoftmax (conv2 (Host.dotGeneral (φ₁ := .f32) (φ₂ := .f32) dot_S500000x16_S16x40_S500000x40_1_0_0_1_n_n none
        (layer1 (Host.dotGeneral (φ₁ := .f32) (φ₂ := .f32) dot_S1000000x128_S128x16_S1000000x16_1_0_0_1_n_n none x w1) src1 dst1 ew1 b1) w2) src2 dst2 ew2 b2)
      = gcn x src1 dst1 ew1 src2 dst2 ew2 w1 b1 w2 b2 := by
  unfold gcn
  rw [hostDot_eq_mm (φ₁ := .f32) (φ₂ := .f32) dot_S1000000x128_S128x16_S1000000x16_1_0_0_1_n_n rfl rfl rfl rfl rfl rfl none x w1,
    hostDot_eq_mm (φ₁ := .f32) (φ₂ := .f32) dot_S500000x16_S16x40_S500000x40_1_0_0_1_n_n rfl rfl rfl rfl rfl rfl none _ w2]

end Cert.Gcn

/-! ## The idealized kernel's result -/

namespace Cert.KernelIdeal.Bridge

open Cert.KernelIdeal Cert.KernelIdeal.Gen Idealize.ShloMosaic Idealize.ShloMosaic.TcCoe Idealize.SL.Sem Cert.Dense

variable (m : (ℓ : Loc nD τ sig) → Buf (Elt Ideal) ℓ) (ρ : Dev nD → PrngReg)

/-- After the first region its result array is the product of the first two of its arrays as launched. -/
theorem W1_v0 (c : Dev nD) : W1 m ρ c (Proc.devRef .tc main_v0) = mm (m ((c : Thread nD τ).loc main_arg0)) (m ((c : Thread nD τ).loc main_arg7)) :=
  (W1_arr m ρ c 2).trans (RegionValue.final0 (V0 m ρ) c)

/-- After the second region its result array is the product of its two arrays as that region finds them. -/
theorem W4_v18 (c : Dev nD) : W4 m ρ c (Proc.devRef .tc main_v18)
    = mm (W3 m ρ c (Proc.devRef .tc main_v17)) (W3 m ρ c (Proc.devRef .tc main_arg9)) :=
  (W4_arr m ρ c 2).trans (RegionValue.final1 (V3 m ρ) c)

/-- The result buffer at the return is the specification of the arguments as launched. -/
theorem result (c : Dev nD) : W6 m ρ c (Proc.devRef .tc main_v35)
    = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [HostValue.W6_v35, W4_v18, HostValue.W3_v17, HostValue.W3_arg9, W1_v0]
  rfl

end Cert.KernelIdeal.Bridge

/-! ## The idealized reference's result -/

namespace Cert.ReferenceIdeal.Bridge

open Cert.ReferenceIdeal Cert.ReferenceIdeal.Gen Idealize.ShloMosaic Idealize.ShloMosaic.TcCoe Idealize.SL.Sem

/-- The reference run's result term is the specification of the arguments as launched. -/
theorem result (m : (ℓ : Loc nD τ sig) → Buf (Elt Ideal) ℓ) (c : Dev nD) :
    Cert.ReferenceIdeal.ValueP.res_main_v35 (F := Ideal) m c
      = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  Eq.trans (by unfold Cert.ReferenceIdeal.ValueP.res_main_v35; rfl) (Cert.Gcn.gcn_hostDot _ _ _ _ _ _ _ _ _ _ _)

end Cert.ReferenceIdeal.Bridge

end
-- ==== Proof.lean ====
/-
  A two-layer graph convolution: the kernel computes its two dense products `x W1` and `h W2` in two pipelined regions,
  each tiled over the rows of its left operand, and leaves the gathers, edge scalings, scattered sums, biases, the
  rectification and the final logarithm of the softmax to host operations; the reference computes the two products by
  the host's dot product and applies the same host operations.

  On the extended reals both programs end with
      logSoftmax (conv2 (mm (layer1 (mm x W1) src1 dst1 ew1 b1) W2) src2 dst2 ew2 b2)
  of their arguments (`Cert.Gcn.gcn`): a region's result array is the whole matrix product because row `r` of a product
  depends on row `r` of the left operand only and the row blocks tile the array (`RegionValue.final0`, `final1`); the
  host's dot product is the same sum of products over the contracted axis (`Cert.Dense.hostDot_eq_mm`); and the host
  operations around the products are the same in both programs. No law that fails at an infinity is used, so the
  precondition is never opened. The idealization rewrote no operation, so it preserves the kernel trivially.
-/
import proofs.«151182_j61950608278028_1_alg».proof.Defs
import proofs.«151182_j61950608278028_1_alg».proof.Proof.Gen.Kernel
import proofs.«151182_j61950608278028_1_alg».proof.Proof.Gen.Kernel.Skeleton
import proofs.«151182_j61950608278028_1_alg».proof.Proof.Gen.Kernel.Launch
import proofs.«151182_j61950608278028_1_alg».proof.Proof.Gen.Kernel.Points
import proofs.«151182_j61950608278028_1_alg».proof.Proof.Gen.Kernel.Frame
import proofs.«151182_j61950608278028_1_alg».proof.Proof.Gen.KernelIdeal
import proofs.«151182_j61950608278028_1_alg».proof.Proof.Gen.KernelIdeal.Skeleton
import proofs.«151182_j61950608278028_1_alg».proof.Proof.Gen.KernelIdeal.Launch
import proofs.«151182_j61950608278028_1_alg».proof.Proof.Gen.KernelIdeal.Points
import proofs.«151182_j61950608278028_1_alg».proof.Proof.Gen.KernelIdeal.Frame
import proofs.«151182_j61950608278028_1_alg».proof.Proof.Gen.ReferenceIdeal
import proofs.«151182_j61950608278028_1_alg».proof.Proof.Gen.Pre_finite_inputs
import proofs.«151182_j61950608278028_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the specification of those arguments in
    their result buffers. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Bridge.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.Bridge.result m' c, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
